-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S64x4096 : Shape := ⟨2, ![64, 4096]⟩
abbrev S64 : Shape := ⟨1, ![64]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x4096 .f32) (main_arg1 : FVec F S64x4096 .f32) (main_arg2 : FVec F S64 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x4096 : Shape := ⟨2, ![32768, 4096]⟩
abbrev S64x4096 : Shape := ⟨2, ![64, 4096]⟩
abbrev S64 : Shape := ⟨1, ![64]⟩
abbrev S1x64 : Shape := ⟨2, ![1, 64]⟩
abbrev S32768x64 : Shape := ⟨2, ![32768, 64]⟩
abbrev S512x1024 : Shape := ⟨2, ![512, 1024]⟩
abbrev S64x1024 : Shape := ⟨2, ![64, 1024]⟩
abbrev S512x64 : Shape := ⟨2, ![512, 64]⟩

abbrev nBuf : Space → Nat
  | .hbm => 5
  | .vmem => 15
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S1x64, .f32⟩
  | .hbm, ⟨4, _⟩ => ⟨S32768x64, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S1x64, .f32⟩
  | .local _ .vmem, ⟨13, _⟩ => ⟨S512x64, .f32⟩
  | .local _ .vmem, ⟨14, _⟩ => ⟨S512x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_7 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S64_S1x64 : S64.ShapeCasts S1x64
  inb_S512x1024_S512x1024_0_0 : ∀ a, (![0, 0] : Fin 2 → Nat) a + S512x1024.size a ≤ S512x1024.size a
  h_S512x1024 : 0 < S512x1024.numel
  inb_S64x1024_S64x1024_0_0 : ∀ a, (![0, 0] : Fin 2 → Nat) a + S64x1024.size a ≤ S64x1024.size a
  h_S64x1024 : 0 < S64x1024.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  dot_S512x1024_S64x1024_S512x64_1_1_0_0_n_n_wf : DotDims.WF S512x1024 S64x1024 S512x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x4096.size a
  hwx0_0 : ∀ i : grid0.Coords, EltTy.bits .f32 = 32 ∨ (Rect.block (s := S32768x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S32768x4096.size a
  hwx0_1 : ∀ i : grid0.Coords, EltTy.bits .f32 = 32 ∨ (Rect.block (s := S32768x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S32768x4096.size a
  hwx0_2 : ∀ i : grid0.Coords, EltTy.bits .f32 = 32 ∨ (Rect.block (s := S32768x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S32768x4096.size a
  hwx0_3 : ∀ i : grid0.Coords, EltTy.bits .f32 = 32 ∨ (Rect.block (s := S32768x4096) S512x1024.size (cc0_transform_3 i) (hinb0_3 i)).WholeWords (EltTy.packing .f32)
  hstage0_4 : ∀ j, (stage0_4 j).IsWhole
  nbuf0_4 : grid0.bufCount reads0_4 false = 1
  hreads0_4 : ∀ i i' : grid0.Coords, (∀ a, reads0_4 a = true → i a = i' a) → cc0_transform_4 i = cc0_transform_4 i'
  hinb0_4 : ∀ (i : grid0.Coords) a, (cc0_transform_4 i a + 1) * S64x1024.size a ≤ S64x4096.size a
  hwx0_4 : ∀ i : grid0.Coords, EltTy.bits .f32 = 32 ∨ (Rect.block (s := S64x4096) S64x1024.size (cc0_transform_4 i) (hinb0_4 i)).WholeWords (EltTy.packing .f32)
  hstage0_5 : ∀ j, (stage0_5 j).IsWhole
  nbuf0_5 : grid0.bufCount reads0_5 false = 1
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S64x4096.size a
  hwx0_5 : ∀ i : grid0.Coords, EltTy.bits .f32 = 32 ∨ (Rect.block (s := S64x4096) S64x1024.size (cc0_transform_5 i) (hinb0_5 i)).WholeWords (EltTy.packing .f32)
  hstage0_6 : ∀ j, (stage0_6 j).IsWhole
  nbuf0_6 : grid0.bufCount reads0_6 false = 1
  hreads0_6 : ∀ i i' : grid0.Coords, (∀ a, reads0_6 a = true → i a = i' a) → cc0_transform_6 i = cc0_transform_6 i'
  hinb0_6 : ∀ (i : grid0.Coords) a, (cc0_transform_6 i a + 1) * S64x1024.size a ≤ S64x4096.size a
  hwx0_6 : ∀ i : grid0.Coords, EltTy.bits .f32 = 32 ∨ (Rect.block (s := S64x4096) S64x1024.size (cc0_transform_6 i) (hinb0_6 i)).WholeWords (EltTy.packing .f32)
  hstage0_7 : ∀ j, (stage0_7 j).IsWhole
  nbuf0_7 : grid0.bufCount reads0_7 false = 1
  hreads0_7 : ∀ i i' : grid0.Coords, (∀ a, reads0_7 a = true → i a = i' a) → cc0_transform_7 i = cc0_transform_7 i'
  hinb0_7 : ∀ (i : grid0.Coords) a, (cc0_transform_7 i a + 1) * S64x1024.size a ≤ S64x4096.size a
  hwx0_7 : ∀ i : grid0.Coords, EltTy.bits .f32 = 32 ∨ (Rect.block (s := S64x4096) S64x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x64.size a ≤ S32768x64.size a
  hwx0_9 : ∀ i : grid0.Coords, EltTy.bits .f32 = 32 ∨ (Rect.block (s := S32768x64) S512x64.size (cc0_transform_9 i) (hinb0_9 i)).WholeWords (EltTy.packing .f32)

variable [Facts₀]

def dot_S512x1024_S64x1024_S512x64_1_1_0_0_n_n : DotDims S512x1024 S64x1024 S512x64 where
  lhsContracting := [1]
  rhsContracting := [1]
  lhsNonContracting := [0]
  rhsNonContracting := [0]
  lhsBatch := []
  rhsBatch := []
  wf := dot_S512x1024_S64x1024_S512x64_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S64x1024.size cc0_transform_4 reads0_4 false false 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S64x1024.size cc0_transform_5 reads0_5 false false 1 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S64x1024.size cc0_transform_6 reads0_6 false false 1 stage0_6 sem0_6
    hrank0 hreads0_6 hinb0_6 nbuf0_6 (Memref.isWhole_whole _) hwx0_6 hstage0_6

abbrev win0_7 : Pipeline.Window sig grid0 :=
  Pipeline.Window.ofSpec (Memref.whole main_arg1) S64x1024.size cc0_transform_7 reads0_7 false false 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S512x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S32768x64 : Shape := ⟨2, ![32768, 64]⟩
abbrev S1x64 : Shape := ⟨2, ![1, 64]⟩

abbrev nBuf : Space → Nat
  | .hbm => 8
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.FrameK.lean ====
/-
  The launch of a kernel whose input windows SHARE arrays, and its frame.

  The kernel is handed the activations through four windows (the four column slabs of width 1024 of one
  32768 x 4096 array) and the weights through four more (the four column slabs of one 64 x 4096 array), the bias
  through a ninth and writes one 512 x 64 block of the result per grid point through the tenth. Every input
  window is only read, so the array behind several windows is held by each of them at a positive fraction of
  the full share: a quarter each, from halving the full share twice. The result's array, which no other window
  names, is held whole. With the shares so dealt, the body's triple is the ordinary one for a body of loads and
  one covering store: every staging buffer is whole and held at the full share, the inputs' buffers hold their
  blocks at every point (fetched there or not), and the result's buffer ends at the one store's payload.

  What the run concludes: every window's array at the contents the write-backs leave (an input's as launched,
  the result's overwritten block by block), every other unscoped buffer as the region found it. The frame
  statement reads the three argument arrays off that.
-/
import proofs.«120550_g35725537968819_cont_8to1_b_281_6_alg».proof.Proof.Gen.Kernel.Launch
import proofs.«120550_g35725537968819_cont_8to1_b_281_6_alg».proof.Proof.Gen.Kernel.Skeleton
import proofs.«120550_g35725537968819_cont_8to1_b_281_6_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers of core `c` when the region is entered: the launch contents after the one reshape of the bias. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is that reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes none of the three arguments: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (unfetched, the
    block index has not moved), for any proof data whose array is the region's and whose body leaves the block in
    place. -/
theorem found_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found_in_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found_in_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem found_in_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem found_in_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem found_in_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem found_in_8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the result's buffer -/

abbrev rX : Rect S512x1024 := Rect.unit (s := S512x1024) ![0, 0] S512x1024.size inb_S512x1024_S512x1024_0_0
abbrev rW : Rect S64x1024 := Rect.unit (s := S64x1024) ![0, 0] S64x1024.size inb_S64x1024_S64x1024_0_0
abbrev rB : Rect S1x64 := Rect.unit (s := S1x64) ![0, 0] S1x64.size inb_S1x64_S1x64_0_0
abbrev rO : Rect S512x64 := Rect.unit (s := S512x64) ![0, 0] S512x64.size inb_S512x64_S512x64_0_0

/-- The result window's staging buffer after the body, from the nine input blocks: its one store, of the payload of the
    nine loads, covering the buffer. The payload pairs activation slab `j` with weight slab `j`. -/
def outBlock (x0 x1 x2 x3 : Vec F S512x1024 .f32) (w0 w1 w2 w3 : Vec F S64x1024 .f32) (b : Vec F S1x64 .f32) : Vec F S512x64 .f32 :=
  View.canon [⟨rO, k0_pay1 (View.ld x0 rX) (View.ld w0 rW) (View.ld x1 rX) (View.ld w1 rW) (View.ld x2 rX) (View.ld w2 rW)
    (View.ld x3 rX) (View.ld w3 rW) (View.ld b rB)⟩]

/-- The one store covers the buffer. -/
theorem cover_out (p0 : Vec F S512x64 .f32) (y : S512x64.Idx) :
    ∃ pc ∈ ([⟨rO, p0⟩] : List (View.Piece (Elt F) S512x64 .f32)), y ∈ pc.1.set :=
  View.cover_of_tiled [⟨rO, p0⟩] S512x64.size (by rfl) y

/-! ## The body's triple -/

set_option maxHeartbeats 1000000 in
/-- The kernel body on whole staging memrefs, the nine inputs' at read contents and the result's at anything, runs to the
    continuation holding the inputs' as they were and the result's at `outBlock` of them. -/
theorem sound_kernel (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S64x1024 .f32) (harg5 : arg5.IsWhole) (arg6 : Memref sig .tc .vmem S64x1024 .f32) (harg6 : arg6.IsWhole)
    (arg7 : Memref sig .tc .vmem S64x1024 .f32) (harg7 : arg7.IsWhole) (arg8 : Memref sig .tc .vmem S64x1024 .f32) (harg8 : arg8.IsWhole)
    (arg9 : Memref sig .tc .vmem S1x64 .f32) (harg9 : arg9.IsWhole) (arg10 : Memref sig .tc .vmem S512x64 .f32) (harg10 : arg10.IsWhole)
    (x0 x1 x2 x3 : Vec F S512x1024 .f32) (w0 w1 w2 w3 : Vec F S64x1024 .f32) (b : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare w0 ∗ owns (c : Thread nD τ) arg6 fullShare w1
        ∗ owns (c : Thread nD τ) arg7 fullShare w2 ∗ owns (c : Thread nD τ) arg8 fullShare w3 ∗ owns (c : Thread nD τ) arg9 fullShare b
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare w0 ∗ owns (c : Thread nD τ) arg6 fullShare w1
            ∗ owns (c : Thread nD τ) arg7 fullShare w2 ∗ owns (c : Thread nD τ) arg8 fullShare w3 ∗ owns (c : Thread nD τ) arg9 fullShare b
            ∗ owns (c : Thread nD τ) arg10 fullShare (outBlock x0 x1 x2 x3 w0 w1 w2 w3 b)) -∗ K ⟨⟩))
      ⊢ wp frame (wpE (defs₀ (F := F)) Variants.none c none) E
          (cc0__router_block i arg1 harg1 arg2 harg2 arg3 harg3 arg4 harg4 arg5 harg5 arg6 harg6 arg7 harg7 arg8 harg8 arg9 harg9 arg10 harg10) K := by
  simp only [cc0__router_block_eq_skeleton]; unfold cc0__router_block_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_out _)

/-! ## The proof data -/

/-- The proof data of the pipeline on core `c`: the arrays as the region finds them; after the body at point `t` each
    input's buffer at its block and the result's at `outBlock` of the nine blocks; no invariant beyond that; nothing
    owed. The shares: the four windows on the activations hold that array at a quarter of the full share each
    (the two halves of each half), the four on the weights likewise; the bias window's array, which no other window names,
    is held whole, and so is the result's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t) (iblk m c 7 t) (iblk m c 8 t)
  Φ _ := iprop(emp)
  q w := match w with
    | ⟨0, _⟩ => fullShare.left.left
    | ⟨1, _⟩ => fullShare.left.right
    | ⟨2, _⟩ => fullShare.right.left
    | ⟨3, _⟩ => fullShare.right.right
    | ⟨4, _⟩ => fullShare.left.left
    | ⟨5, _⟩ => fullShare.left.right
    | ⟨6, _⟩ => fullShare.right.left
    | ⟨7, _⟩ => fullShare.right.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outBlock (iblk m c 0 t) (iblk m c 1 t) (iblk m c 2 t) (iblk m c 3 t) (iblk m c 4 t) (iblk m c 5 t) (iblk m c 6 t) (iblk m c 7 t) (iblk m c 8 t) := by dsimp only [dats]

theorem before_0 (c : Dev nD) (t : Fin cfg0.N) (d) : (dats m 0 c).before 0 t d = iblk m c 0 t :=
  found_in_0 m (dats m 0 c) (A_eq m c 0) (after_0 m c) t d
theorem before_1 (c : Dev nD) (t : Fin cfg0.N) (d) : (dats m 0 c).before 1 t d = iblk m c 1 t :=
  found_in_1 m (dats m 0 c) (A_eq m c 1) (after_1 m c) t d
theorem before_2 (c : Dev nD) (t : Fin cfg0.N) (d) : (dats m 0 c).before 2 t d = iblk m c 2 t :=
  found_in_2 m (dats m 0 c) (A_eq m c 2) (after_2 m c) t d
theorem before_3 (c : Dev nD) (t : Fin cfg0.N) (d) : (dats m 0 c).before 3 t d = iblk m c 3 t :=
  found_in_3 m (dats m 0 c) (A_eq m c 3) (after_3 m c) t d
theorem before_4 (c : Dev nD) (t : Fin cfg0.N) (d) : (dats m 0 c).before 4 t d = iblk m c 4 t :=
  found_in_4 m (dats m 0 c) (A_eq m c 4) (after_4 m c) t d
theorem before_5 (c : Dev nD) (t : Fin cfg0.N) (d) : (dats m 0 c).before 5 t d = iblk m c 5 t :=
  found_in_5 m (dats m 0 c) (A_eq m c 5) (after_5 m c) t d
theorem before_6 (c : Dev nD) (t : Fin cfg0.N) (d) : (dats m 0 c).before 6 t d = iblk m c 6 t :=
  found_in_6 m (dats m 0 c) (A_eq m c 6) (after_6 m c) t d
theorem before_7 (c : Dev nD) (t : Fin cfg0.N) (d) : (dats m 0 c).before 7 t d = iblk m c 7 t :=
  found_in_7 m (dats m 0 c) (A_eq m c 7) (after_7 m c) t d
theorem before_8 (c : Dev nD) (t : Fin cfg0.N) (d) : (dats m 0 c).before 8 t d = iblk m c 8 t :=
  found_in_8 m (dats m 0 c) (A_eq m c 8) (after_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' memrefs hold their blocks, so the body's triple applies; the invariant and the
    core's owed tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation (c : Dev nD) : BodyObligation (dats (F := F) m 0 c) (defs₀ (F := F)) Variants.none () Set.univ := fun t => by
  rw [bigSep_W0, bigSep_W0]
  exact sound_body m c t

/-! ## The shares dealt at the region's entry -/

/-- A buffer held whole at the full share is held four times at a quarter: the full share halves, and each half halves. -/
theorem quarters {ℓ : Loc nD τ sig} (f : Buf (Elt F) ℓ) :
    (ℓ ↦{fullShare} f : sProp 𝕄) ⊢ iprop((ℓ ↦{fullShare.left.left} f) ∗ (ℓ ↦{fullShare.left.right} f)
      ∗ (ℓ ↦{fullShare.right.left} f) ∗ (ℓ ↦{fullShare.right.right} f)) := by
  refine ((pointsTo_share (PosShare.mem_left_op_right fullShare)).1.trans
    (BIClass.sep_mono (pointsTo_share (PosShare.mem_left_op_right fullShare.left)).1
      (pointsTo_share (PosShare.mem_left_op_right fullShare.right)).1)).trans ?_
  iintro ⟨⟨H0, H1⟩, ⟨H2, H3⟩⟩
  isplitl [H0]; · iexact H0
  isplitl [H1]; · iexact H1
  isplitl [H2]; · iexact H2
  iexact H3

/-- The windows' arrays, window by window, each a whole buffer at the window's share and the region's contents. -/
theorem arrays_eq (c : Dev nD) :
    (dats m 0 c).arrays ((dats m 0 c).arrAt · 0)
      = bigSep Finset.univ fun w : Fin 10 =>
          ((((c.tc : Thread nD τ).loc (Pipeline.arrRef spec0 w)) ↦{(dats m 0 c).share w} V m c (Pipeline.arrRef spec0 w)) : sProp 𝕄) := by
  unfold Dat.arrays
  exact bigSep_congr fun w _ => by rw [(arr_whole0 w).set_eq_univ]; rfl

/-- At the region's entry the four distinct buffers behind the ten windows, each whole at the full share, are the
    windows' arrays at their shares: the activations' buffer and the weights' quartered among their four windows,
    the bias's and the result's passed whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_eq, bigSep_W0]
  unfold Pipeline.arrBufs
  rw [bigSep_eq_bigSepL_of_eq [main_arg0, main_arg1, main_v0, main_v1] (by decide) (by decide)]
  show iprop((((c.tc : Thread nD τ).loc main_arg0) ↦{fullShare} V m c main_arg0) ∗ (((c.tc : Thread nD τ).loc main_arg1) ↦{fullShare} V m c main_arg1)
      ∗ (((c.tc : Thread nD τ).loc main_v0) ↦{fullShare} V m c main_v0) ∗ (((c.tc : Thread nD τ).loc main_v1) ↦{fullShare} V m c main_v1))
    ⊢ iprop((((c.tc : Thread nD τ).loc main_arg0) ↦{fullShare.left.left} V m c main_arg0) ∗ (((c.tc : Thread nD τ).loc main_arg0) ↦{fullShare.left.right} V m c main_arg0)
      ∗ (((c.tc : Thread nD τ).loc main_arg0) ↦{fullShare.right.left} V m c main_arg0) ∗ (((c.tc : Thread nD τ).loc main_arg0) ↦{fullShare.right.right} V m c main_arg0)
      ∗ (((c.tc : Thread nD τ).loc main_arg1) ↦{fullShare.left.left} V m c main_arg1) ∗ (((c.tc : Thread nD τ).loc main_arg1) ↦{fullShare.left.right} V m c main_arg1)
      ∗ (((c.tc : Thread nD τ).loc main_arg1) ↦{fullShare.right.left} V m c main_arg1) ∗ (((c.tc : Thread nD τ).loc main_arg1) ↦{fullShare.right.right} V m c main_arg1)
      ∗ (((c.tc : Thread nD τ).loc main_v0) ↦{fullShare} V m c main_v0) ∗ (((c.tc : Thread nD τ).loc main_v1) ↦{fullShare} V m c main_v1))
  refine (BIClass.sep_mono (quarters _) (BIClass.sep_mono (quarters _) .rfl)).trans ?_
  iintro ⟨⟨H0, H1, H2, H3⟩, ⟨H4, H5, H6, H7⟩, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The run and the frame -/

set_option backward.isDefEq.respectTransparency.types false in
/-- For any values, from any memory with zero counters: every weakly fair execution of the program on the TensorCores
    terminates, and every final state has every window's array at what the write-backs leave of the proof data and
    every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by iintro -; iempintro)
    (hout := fun c => by
      rw [scopedRest0_eq]
      iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- The frame: the program runs to the end, faults nowhere, and leaves its three argument arrays as launched — the
    activations and the weights read off a window that stages them (an input's array is never written), the bias
    off the buffers the region bypasses. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
      ((h c).1 4).trans (((dats m 0 c).arrAt_in 4 rfl _).trans ((A_eq m c 4).trans (V_main_arg1 m c))),
      ((h c).2 main_arg2 (Pipeline.mem_restRefs_of main_arg2 rfl (by decide))).trans (V_main_arg2 m c)⟩) (run_main m ρ)

end Cert.Kernel.Shared

end
-- ==== Proof.FrameI.lean ====
/-
  The launch of a kernel whose input windows SHARE arrays, and its frame.

  The kernel is handed the activations through four windows (the four column slabs of width 1024 of one
  32768 x 4096 array) and the weights through four more (the four column slabs of one 64 x 4096 array), the bias
  through a ninth and writes one 512 x 64 block of the result per grid point through the tenth. Every input
  window is only read, so the array behind several windows is held by each of them at a positive fraction of
  the full share: a quarter each, from halving the full share twice. The result's array, which no other window
  names, is held whole. With the shares so dealt, the body's triple is the ordinary one for a body of loads and
  one covering store: every staging buffer is whole and held at the full share, the inputs' buffers hold their
  blocks at every point (fetched there or not), and the result's buffer ends at the one store's payload.

  What the run concludes: every window's array at the contents the write-backs leave (an input's as launched,
  the result's overwritten block by block), every other unscoped buffer as the region found it. The frame
  statement reads the three argument arrays off that.
-/
import proofs.«120550_g35725537968819_cont_8to1_b_281_6_alg».proof.Proof.Gen.KernelIdeal.Launch
import proofs.«120550_g35725537968819_cont_8to1_b_281_6_alg».proof.Proof.Gen.KernelIdeal.Skeleton
import proofs.«120550_g35725537968819_cont_8to1_b_281_6_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers of core `c` when the region is entered: the launch contents after the one reshape of the bias. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is that reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes none of the three arguments: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (unfetched, the
    block index has not moved), for any proof data whose array is the region's and whose body leaves the block in
    place. -/
theorem found_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found_in_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found_in_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem found_in_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem found_in_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem found_in_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem found_in_8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the result's buffer -/

abbrev rX : Rect S512x1024 := Rect.unit (s := S512x1024) ![0, 0] S512x1024.size inb_S512x1024_S512x1024_0_0
abbrev rW : Rect S64x1024 := Rect.unit (s := S64x1024) ![0, 0] S64x1024.size inb_S64x1024_S64x1024_0_0
abbrev rB : Rect S1x64 := Rect.unit (s := S1x64) ![0, 0] S1x64.size inb_S1x64_S1x64_0_0
abbrev rO : Rect S512x64 := Rect.unit (s := S512x64) ![0, 0] S512x64.size inb_S512x64_S512x64_0_0

/-- The result window's staging buffer after the body, from the nine input blocks: its one store, of the payload of the
    nine loads, covering the buffer. The payload pairs activation slab `j` with weight slab `j`. -/
def outBlock (x0 x1 x2 x3 : Vec F S512x1024 .f32) (w0 w1 w2 w3 : Vec F S64x1024 .f32) (b : Vec F S1x64 .f32) : Vec F S512x64 .f32 :=
  View.canon [⟨rO, k0_pay1 (View.ld x0 rX) (View.ld w0 rW) (View.ld x1 rX) (View.ld w1 rW) (View.ld x2 rX) (View.ld w2 rW)
    (View.ld x3 rX) (View.ld w3 rW) (View.ld b rB)⟩]

/-- The one store covers the buffer. -/
theorem cover_out (p0 : Vec F S512x64 .f32) (y : S512x64.Idx) :
    ∃ pc ∈ ([⟨rO, p0⟩] : List (View.Piece (Elt F) S512x64 .f32)), y ∈ pc.1.set :=
  View.cover_of_tiled [⟨rO, p0⟩] S512x64.size (by rfl) y

/-! ## The body's triple -/

set_option maxHeartbeats 1000000 in
/-- The kernel body on whole staging memrefs, the nine inputs' at read contents and the result's at anything, runs to the
    continuation holding the inputs' as they were and the result's at `outBlock` of them. -/
theorem sound_kernel (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S64x1024 .f32) (harg5 : arg5.IsWhole) (arg6 : Memref sig .tc .vmem S64x1024 .f32) (harg6 : arg6.IsWhole)
    (arg7 : Memref sig .tc .vmem S64x1024 .f32) (harg7 : arg7.IsWhole) (arg8 : Memref sig .tc .vmem S64x1024 .f32) (harg8 : arg8.IsWhole)
    (arg9 : Memref sig .tc .vmem S1x64 .f32) (harg9 : arg9.IsWhole) (arg10 : Memref sig .tc .vmem S512x64 .f32) (harg10 : arg10.IsWhole)
    (x0 x1 x2 x3 : Vec F S512x1024 .f32) (w0 w1 w2 w3 : Vec F S64x1024 .f32) (b : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare w0 ∗ owns (c : Thread nD τ) arg6 fullShare w1
        ∗ owns (c : Thread nD τ) arg7 fullShare w2 ∗ owns (c : Thread nD τ) arg8 fullShare w3 ∗ owns (c : Thread nD τ) arg9 fullShare b
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare w0 ∗ owns (c : Thread nD τ) arg6 fullShare w1
            ∗ owns (c : Thread nD τ) arg7 fullShare w2 ∗ owns (c : Thread nD τ) arg8 fullShare w3 ∗ owns (c : Thread nD τ) arg9 fullShare b
            ∗ owns (c : Thread nD τ) arg10 fullShare (outBlock x0 x1 x2 x3 w0 w1 w2 w3 b)) -∗ K ⟨⟩))
      ⊢ wp frame (wpE (defs₀ (F := F)) Variants.none c none) E
          (cc0__router_block i arg1 harg1 arg2 harg2 arg3 harg3 arg4 harg4 arg5 harg5 arg6 harg6 arg7 harg7 arg8 harg8 arg9 harg9 arg10 harg10) K := by
  simp only [cc0__router_block_eq_skeleton]; unfold cc0__router_block_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_out _)

/-! ## The proof data -/

/-- The proof data of the pipeline on core `c`: the arrays as the region finds them; after the body at point `t` each
    input's buffer at its block and the result's at `outBlock` of the nine blocks; no invariant beyond that; nothing
    owed. The shares: the four windows on the activations hold that array at a quarter of the full share each
    (the two halves of each half), the four on the weights likewise; the bias window's array, which no other window names,
    is held whole, and so is the result's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t) (iblk m c 7 t) (iblk m c 8 t)
  Φ _ := iprop(emp)
  q w := match w with
    | ⟨0, _⟩ => fullShare.left.left
    | ⟨1, _⟩ => fullShare.left.right
    | ⟨2, _⟩ => fullShare.right.left
    | ⟨3, _⟩ => fullShare.right.right
    | ⟨4, _⟩ => fullShare.left.left
    | ⟨5, _⟩ => fullShare.left.right
    | ⟨6, _⟩ => fullShare.right.left
    | ⟨7, _⟩ => fullShare.right.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outBlock (iblk m c 0 t) (iblk m c 1 t) (iblk m c 2 t) (iblk m c 3 t) (iblk m c 4 t) (iblk m c 5 t) (iblk m c 6 t) (iblk m c 7 t) (iblk m c 8 t) := by dsimp only [dats]

theorem before_0 (c : Dev nD) (t : Fin cfg0.N) (d) : (dats m 0 c).before 0 t d = iblk m c 0 t :=
  found_in_0 m (dats m 0 c) (A_eq m c 0) (after_0 m c) t d
theorem before_1 (c : Dev nD) (t : Fin cfg0.N) (d) : (dats m 0 c).before 1 t d = iblk m c 1 t :=
  found_in_1 m (dats m 0 c) (A_eq m c 1) (after_1 m c) t d
theorem before_2 (c : Dev nD) (t : Fin cfg0.N) (d) : (dats m 0 c).before 2 t d = iblk m c 2 t :=
  found_in_2 m (dats m 0 c) (A_eq m c 2) (after_2 m c) t d
theorem before_3 (c : Dev nD) (t : Fin cfg0.N) (d) : (dats m 0 c).before 3 t d = iblk m c 3 t :=
  found_in_3 m (dats m 0 c) (A_eq m c 3) (after_3 m c) t d
theorem before_4 (c : Dev nD) (t : Fin cfg0.N) (d) : (dats m 0 c).before 4 t d = iblk m c 4 t :=
  found_in_4 m (dats m 0 c) (A_eq m c 4) (after_4 m c) t d
theorem before_5 (c : Dev nD) (t : Fin cfg0.N) (d) : (dats m 0 c).before 5 t d = iblk m c 5 t :=
  found_in_5 m (dats m 0 c) (A_eq m c 5) (after_5 m c) t d
theorem before_6 (c : Dev nD) (t : Fin cfg0.N) (d) : (dats m 0 c).before 6 t d = iblk m c 6 t :=
  found_in_6 m (dats m 0 c) (A_eq m c 6) (after_6 m c) t d
theorem before_7 (c : Dev nD) (t : Fin cfg0.N) (d) : (dats m 0 c).before 7 t d = iblk m c 7 t :=
  found_in_7 m (dats m 0 c) (A_eq m c 7) (after_7 m c) t d
theorem before_8 (c : Dev nD) (t : Fin cfg0.N) (d) : (dats m 0 c).before 8 t d = iblk m c 8 t :=
  found_in_8 m (dats m 0 c) (A_eq m c 8) (after_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' memrefs hold their blocks, so the body's triple applies; the invariant and the
    core's owed tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation (c : Dev nD) : BodyObligation (dats (F := F) m 0 c) (defs₀ (F := F)) Variants.none () Set.univ := fun t => by
  rw [bigSep_W0, bigSep_W0]
  exact sound_body m c t

/-! ## The shares dealt at the region's entry -/

/-- A buffer held whole at the full share is held four times at a quarter: the full share halves, and each half halves. -/
theorem quarters {ℓ : Loc nD τ sig} (f : Buf (Elt F) ℓ) :
    (ℓ ↦{fullShare} f : sProp 𝕄) ⊢ iprop((ℓ ↦{fullShare.left.left} f) ∗ (ℓ ↦{fullShare.left.right} f)
      ∗ (ℓ ↦{fullShare.right.left} f) ∗ (ℓ ↦{fullShare.right.right} f)) := by
  refine ((pointsTo_share (PosShare.mem_left_op_right fullShare)).1.trans
    (BIClass.sep_mono (pointsTo_share (PosShare.mem_left_op_right fullShare.left)).1
      (pointsTo_share (PosShare.mem_left_op_right fullShare.right)).1)).trans ?_
  iintro ⟨⟨H0, H1⟩, ⟨H2, H3⟩⟩
  isplitl [H0]; · iexact H0
  isplitl [H1]; · iexact H1
  isplitl [H2]; · iexact H2
  iexact H3

/-- The windows' arrays, window by window, each a whole buffer at the window's share and the region's contents. -/
theorem arrays_eq (c : Dev nD) :
    (dats m 0 c).arrays ((dats m 0 c).arrAt · 0)
      = bigSep Finset.univ fun w : Fin 10 =>
          ((((c.tc : Thread nD τ).loc (Pipeline.arrRef spec0 w)) ↦{(dats m 0 c).share w} V m c (Pipeline.arrRef spec0 w)) : sProp 𝕄) := by
  unfold Dat.arrays
  exact bigSep_congr fun w _ => by rw [(arr_whole0 w).set_eq_univ]; rfl

/-- At the region's entry the four distinct buffers behind the ten windows, each whole at the full share, are the
    windows' arrays at their shares: the activations' buffer and the weights' quartered among their four windows,
    the bias's and the result's passed whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_eq, bigSep_W0]
  unfold Pipeline.arrBufs
  rw [bigSep_eq_bigSepL_of_eq [main_arg0, main_arg1, main_v0, main_v1] (by decide) (by decide)]
  show iprop((((c.tc : Thread nD τ).loc main_arg0) ↦{fullShare} V m c main_arg0) ∗ (((c.tc : Thread nD τ).loc main_arg1) ↦{fullShare} V m c main_arg1)
      ∗ (((c.tc : Thread nD τ).loc main_v0) ↦{fullShare} V m c main_v0) ∗ (((c.tc : Thread nD τ).loc main_v1) ↦{fullShare} V m c main_v1))
    ⊢ iprop((((c.tc : Thread nD τ).loc main_arg0) ↦{fullShare.left.left} V m c main_arg0) ∗ (((c.tc : Thread nD τ).loc main_arg0) ↦{fullShare.left.right} V m c main_arg0)
      ∗ (((c.tc : Thread nD τ).loc main_arg0) ↦{fullShare.right.left} V m c main_arg0) ∗ (((c.tc : Thread nD τ).loc main_arg0) ↦{fullShare.right.right} V m c main_arg0)
      ∗ (((c.tc : Thread nD τ).loc main_arg1) ↦{fullShare.left.left} V m c main_arg1) ∗ (((c.tc : Thread nD τ).loc main_arg1) ↦{fullShare.left.right} V m c main_arg1)
      ∗ (((c.tc : Thread nD τ).loc main_arg1) ↦{fullShare.right.left} V m c main_arg1) ∗ (((c.tc : Thread nD τ).loc main_arg1) ↦{fullShare.right.right} V m c main_arg1)
      ∗ (((c.tc : Thread nD τ).loc main_v0) ↦{fullShare} V m c main_v0) ∗ (((c.tc : Thread nD τ).loc main_v1) ↦{fullShare} V m c main_v1))
  refine (BIClass.sep_mono (quarters _) (BIClass.sep_mono (quarters _) .rfl)).trans ?_
  iintro ⟨⟨H0, H1, H2, H3⟩, ⟨H4, H5, H6, H7⟩, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The run and the frame -/

set_option backward.isDefEq.respectTransparency.types false in
/-- For any values, from any memory with zero counters: every weakly fair execution of the program on the TensorCores
    terminates, and every final state has every window's array at what the write-backs leave of the proof data and
    every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by iintro -; iempintro)
    (hout := fun c => by
      rw [scopedRest0_eq]
      iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- The frame: the program runs to the end, faults nowhere, and leaves its three argument arrays as launched — the
    activations and the weights read off a window that stages them (an input's array is never written), the bias
    off the buffers the region bypasses. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
      ((h c).1 4).trans (((dats m 0 c).arrAt_in 4 rfl _).trans ((A_eq m c 4).trans (V_main_arg1 m c))),
      ((h c).2 main_arg2 (Pipeline.mem_restRefs_of main_arg2 rfl (by decide))).trans (V_main_arg2 m c)⟩) (run_main m ρ)

end Cert.KernelIdeal.Shared

end
-- ==== Proof.RouterPayload.lean ====
/-
  The payload of one block of the router product, read at one element: the four slab products, each the sum over
  its 1024 columns of the row of the left slab times the row of the right slab, added from the left, plus the bias
  of the column.
-/
import proofs.«120550_g35725537968819_cont_8to1_b_281_6_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Router

open Idealize.ShloMosaic Idealize.ShloMosaic.ValueIdx
open Cert.KernelIdeal Cert.KernelIdeal.Gen

/-- the left operand's row coordinate at output element j is j's row -/
theorem slab_lhs_row (j : S512x64.Idx) (kk : dot_S512x1024_S64x1024_S512x64_1_1_0_0_n_n.contr.Idx) :
    (dot_S512x1024_S64x1024_S512x64_1_1_0_0_n_n.lhsIdx j kk 0).val = (j 0).val := by
  unfold DotDims.lhsIdx
  rw [dif_neg (show ¬(0 : Fin S512x1024.rank) ∈ dot_S512x1024_S64x1024_S512x64_1_1_0_0_n_n.lhsBatch by decide),
    dif_pos (show (0 : Fin S512x1024.rank) ∈ dot_S512x1024_S64x1024_S512x64_1_1_0_0_n_n.lhsNonContracting by decide)]
  rfl

/-- the left operand's column coordinate is the contraction position -/
theorem slab_lhs_col (j : S512x64.Idx) (kk : dot_S512x1024_S64x1024_S512x64_1_1_0_0_n_n.contr.Idx) :
    (dot_S512x1024_S64x1024_S512x64_1_1_0_0_n_n.lhsIdx j kk 1).val = (kk ⟨0, by decide⟩).val :=
  dot_S512x1024_S64x1024_S512x64_1_1_0_0_n_n.lhsIdx_val_of_single rfl j kk

/-- the right operand's row coordinate at output element j is j's column -/
theorem slab_rhs_row (j : S512x64.Idx) (kk : dot_S512x1024_S64x1024_S512x64_1_1_0_0_n_n.contr.Idx) :
    (dot_S512x1024_S64x1024_S512x64_1_1_0_0_n_n.rhsIdx j kk 0).val = (j 1).val := by
  unfold DotDims.rhsIdx
  rw [dif_neg (show ¬(0 : Fin S64x1024.rank) ∈ dot_S512x1024_S64x1024_S512x64_1_1_0_0_n_n.rhsBatch by decide),
    dif_pos (show (0 : Fin S64x1024.rank) ∈ dot_S512x1024_S64x1024_S512x64_1_1_0_0_n_n.rhsNonContracting by decide)]
  rfl

/-- the right operand's column coordinate is the contraction position -/
theorem slab_rhs_col (j : S512x64.Idx) (kk : dot_S512x1024_S64x1024_S512x64_1_1_0_0_n_n.contr.Idx) :
    (dot_S512x1024_S64x1024_S512x64_1_1_0_0_n_n.rhsIdx j kk 1).val = (kk ⟨0, by decide⟩).val :=
  dot_S512x1024_S64x1024_S512x64_1_1_0_0_n_n.rhsIdx_val_of_single rfl j kk

/-- one slab product into the zero accumulator, at row p and column q: the sum over the slab's 1024 columns of
    the left slab at (p, k) times the right slab at (q, k) -/
theorem slab_apply (a : FVec Ideal S512x1024 .f32) (b : FVec Ideal S64x1024 .f32) (p : Fin 512) (q : Fin 64) :
    matmul dot_S512x1024_S64x1024_S512x64_1_1_0_0_n_n none a b (constant (F := Ideal) S512x64 .f32 0x00000000#32) (ix2 p q)
      = ∑ k : Fin 1024, a (ix2 p k) * b (ix2 q k) := by
  refine (Ideal.matmul_constant_zero_apply dot_S512x1024_S64x1024_S512x64_1_1_0_0_n_n none a b (ix2 p q)).trans ?_
  rw [← Equiv.sum_comp (contrEquiv1 dot_S512x1024_S64x1024_S512x64_1_1_0_0_n_n 1024 rfl rfl).symm]
  refine Finset.sum_congr rfl fun k _ => ?_
  have hk := contrEquiv1_symm_val dot_S512x1024_S64x1024_S512x64_1_1_0_0_n_n 1024 rfl rfl k
  have el : dot_S512x1024_S64x1024_S512x64_1_1_0_0_n_n.lhsIdx (ix2 p q)
      ((contrEquiv1 dot_S512x1024_S64x1024_S512x64_1_1_0_0_n_n 1024 rfl rfl).symm k) = ix2 p k :=
    funext fun ax => Fin.ext (by
      match ax with
      | ⟨0, _⟩ => exact slab_lhs_row _ _
      | ⟨1, _⟩ => exact (slab_lhs_col _ _).trans hk)
  have er : dot_S512x1024_S64x1024_S512x64_1_1_0_0_n_n.rhsIdx (ix2 p q)
      ((contrEquiv1 dot_S512x1024_S64x1024_S512x64_1_1_0_0_n_n 1024 rfl rfl).symm k) = ix2 q k :=
    funext fun ax => Fin.ext (by
      match ax with
      | ⟨0, _⟩ => exact slab_rhs_row _ _
      | ⟨1, _⟩ => exact (slab_rhs_col _ _).trans hk)
  rw [el, er]

/-- the bias row, cast to its own shape and broadcast down the 512 rows, read at row p and column q: the bias of
    column q -/
theorem bias_apply (c : FVec Ideal S1x64 .f32) (p : Fin 512) (q : Fin 64) :
    broadcastTo S512x64 (shapeCast S1x64 c shapeCasts_S1x64_S1x64) broadcasts_S1x64_S512x64 (ix2 p q)
      = c (ix2 (0 : Fin 1) q) := by
  rw [shapeCast_self]
  exact broadcastTo_1b_ab_apply c broadcasts_S1x64_S512x64 p q

/-- the block's payload at row p, column q: the four slab products summed from the left, plus the bias of column q -/
theorem pay_apply (v0 v3 v7 v11 : Vec Ideal S512x1024 .f32) (v1 v4 v8 v12 : Vec Ideal S64x1024 .f32) (v15 : Vec Ideal S1x64 .f32) (p : Fin 512) (q : Fin 64) :
    k0_pay1 (F := Ideal) v0 v1 v3 v4 v7 v8 v11 v12 v15 (ix2 p q)
      = ((((∑ k : Fin 1024, v0 (ix2 p k) * v1 (ix2 q k)) + ∑ k : Fin 1024, v3 (ix2 p k) * v4 (ix2 q k)) + ∑ k : Fin 1024, v7 (ix2 p k) * v8 (ix2 q k)) + ∑ k : Fin 1024, v11 (ix2 p k) * v12 (ix2 q k)) + v15 (ix2 (0 : Fin 1) q) := by
  unfold k0_pay1
  simp only [addf_apply]
  rw [slab_apply v0 v1 p q, slab_apply v3 v4 p q, slab_apply v7 v8 p q, slab_apply v11 v12 p q, bias_apply v15 p q]

end Cert.Router

end
-- ==== Proof.RouterSpec.lean ====
/-
  The specification of the router block product: out = x·Wᵀ + b over the whole arrays, element by element,
  and the regrouping of a sum over 4096 columns into its four consecutive slabs of 1024 columns.
  No program is mentioned here: only extended reals and indices.
-/
import Idealize.ShloMosaic.PureOps.Ideal
import Idealize.ShloMosaic.Lib.ValueIdx

noncomputable section

open scoped BigOperators

namespace Cert.Router

open Idealize.ShloMosaic Idealize.ShloMosaic.ValueIdx

/-- the whole-array specification -/
def G (x : (⟨2, ![32768, 4096]⟩ : Shape).Idx → EReal) (w : (⟨2, ![64, 4096]⟩ : Shape).Idx → EReal)
    (b : (⟨1, ![64]⟩ : Shape).Idx → EReal) : (⟨2, ![32768, 64]⟩ : Shape).Idx → EReal :=
  fun i => (∑ k : Fin 4096, x (ix2 (i 0) k) * w (ix2 (i 1) k)) + b (ix1 (i 1))

/-- the specification at row r, column c: the inner product of row r of x with row c of w, plus b at c -/
theorem G_apply (x : (⟨2, ![32768, 4096]⟩ : Shape).Idx → EReal) (w : (⟨2, ![64, 4096]⟩ : Shape).Idx → EReal)
    (b : (⟨1, ![64]⟩ : Shape).Idx → EReal) (r : Fin 32768) (c : Fin 64) :
    G x w b (ix2 r c) = (∑ k : Fin 4096, x (ix2 r k) * w (ix2 c k)) + b (ix1 c) := rfl

/-- a sum over n = a + b terms is the sum of its first a terms plus the sum of its last b terms -/
theorem sum_two_parts {M : Type*} [AddCommMonoid M] (a b n : ℕ) (h : a + b = n) (f : Fin n → M) :
    ∑ k : Fin n, f k = (∑ k : Fin a, f ⟨k.val, by omega⟩) + ∑ k : Fin b, f ⟨a + k.val, by omega⟩ := by
  subst h
  rw [Fin.sum_univ_add]
  rfl

/-- in any additive commutative monoid, a sum over 4096 terms is the sum of its four consecutive runs of 1024
    terms, grouped from the left: split off the last run three times -/
theorem sum_four_slabs_of_monoid {M : Type*} [AddCommMonoid M] (f : Fin 4096 → M) :
    ∑ k : Fin 4096, f k
      = (((∑ k : Fin 1024, f ⟨k.val, by omega⟩) + ∑ k : Fin 1024, f ⟨1024 + k.val, by omega⟩)
          + ∑ k : Fin 1024, f ⟨2048 + k.val, by omega⟩) + ∑ k : Fin 1024, f ⟨3072 + k.val, by omega⟩ := by
  have h1 := sum_two_parts 3072 1024 4096 rfl f
  have h2 := sum_two_parts 2048 1024 3072 rfl (fun k : Fin 3072 => f ⟨k.val, by omega⟩)
  have h3 := sum_two_parts 1024 1024 2048 rfl (fun k : Fin 2048 => f ⟨k.val, by omega⟩)
  exact h1.trans (congrArg (· + _) (h2.trans (congrArg (· + _) h3)))

/-- a sum over 4096 columns is the sum of its four consecutive slabs of 1024, grouped from the left -/
theorem sum_four_slabs (f : Fin 4096 → EReal) :
    ∑ k : Fin 4096, f k = (((∑ k : Fin 1024, f ⟨k.val, by omega⟩) + ∑ k : Fin 1024, f ⟨1024 + k.val, by omega⟩) + ∑ k : Fin 1024, f ⟨2048 + k.val, by omega⟩) + ∑ k : Fin 1024, f ⟨3072 + k.val, by omega⟩ :=
  sum_four_slabs_of_monoid f

end Cert.Router

end
-- ==== Proof.RouterBlocks.lean ====
/-
  From blocks to the array: what the kernel's result array holds after the run, as one function of the three
  argument arrays.

  Grid point `t` (of 64) writes back rows `512 t .. 512 t + 511` of the result. Its nine input blocks are read off
  the argument arrays where the index maps say: activation window `s` holds rows `512 t + p` and columns
  `1024 s + k`; weight window `s` holds all 64 rows and columns `1024 s + k`, at every point; the bias window holds the
  bias as one row. So entry `(p, q)` of the block written back is
  `(((Σ_k x[r, k] w[q, k] + Σ_k x[r, 1024 + k] w[q, 1024 + k]) + Σ_k x[r, 2048 + k] w[q, 2048 + k]) + Σ_k x[r, 3072 + k] w[q, 3072 + k]) + b[q]`
  at `r = 512 t + p`, which is the whole sum over the 4096 columns plus the bias: a sum over 4096 consecutive indices
  is the sum of its four consecutive quarters, in any additive commutative monoid — no subtraction or cancellation is
  used, so the extended reals' infinities need no care. The 64 blocks tile the result array (row `r` lies in the
  block of point `r / 512`), so the array ends as that function everywhere.
-/
import proofs.«120550_g35725537968819_cont_8to1_b_281_6_alg».proof.Proof.FrameI
import proofs.«120550_g35725537968819_cont_8to1_b_281_6_alg».proof.Proof.RouterPayload
import proofs.«120550_g35725537968819_cont_8to1_b_281_6_alg».proof.Proof.RouterSpec
import Idealize.ShloMosaic.Lib.Pipeline.Value
import Idealize.ShloMosaic.Lib.ValueLayout
import Idealize.ShloMosaic.Lib.StableHlo.Run

noncomputable section

namespace Cert.Router

open Cert.KernelIdeal Cert.KernelIdeal.Gen Cert.KernelIdeal.Shared
open Idealize.ShloMosaic Idealize.ShloMosaic.TcCoe Idealize.SL.Sem Idealize.ShloMosaic.ValueIdx Idealize.ShloMosaic.StableHlo
open Idealize.ShloMosaic.Pipeline (Dat)
open scoped BigOperators

variable (m : (ℓ : Loc nD τ sig) → Buf (Elt Ideal) ℓ) (ρ : Dev nD → PrngReg)

theorem zero_off : (![0, 0] : Fin 2 → Nat) = fun _ => 0 := funext fun a => by fin_cases a <;> rfl

/-! ## The index maps over the grid -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 1 :=
  (by decide +kernel : ∀ t : Fin grid0.N, win0_1.index t (0 : Fin 2) = t.val ∧ win0_1.index t (1 : Fin 2) = 1)
theorem idx2 : ∀ t : Fin cfg0.N, win0_2.index t (0 : Fin 2) = t.val ∧ win0_2.index t (1 : Fin 2) = 2 :=
  (by decide +kernel : ∀ t : Fin grid0.N, win0_2.index t (0 : Fin 2) = t.val ∧ win0_2.index t (1 : Fin 2) = 2)
theorem idx3 : ∀ t : Fin cfg0.N, win0_3.index t (0 : Fin 2) = t.val ∧ win0_3.index t (1 : Fin 2) = 3 :=
  (by decide +kernel : ∀ t : Fin grid0.N, win0_3.index t (0 : Fin 2) = t.val ∧ win0_3.index t (1 : Fin 2) = 3)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 1 :=
  (by decide +kernel : ∀ t : Fin grid0.N, win0_5.index t (0 : Fin 2) = 0 ∧ win0_5.index t (1 : Fin 2) = 1)
theorem idx6 : ∀ t : Fin cfg0.N, win0_6.index t (0 : Fin 2) = 0 ∧ win0_6.index t (1 : Fin 2) = 2 :=
  (by decide +kernel : ∀ t : Fin grid0.N, win0_6.index t (0 : Fin 2) = 0 ∧ win0_6.index t (1 : Fin 2) = 2)
theorem idx7 : ∀ t : Fin cfg0.N, win0_7.index t (0 : Fin 2) = 0 ∧ win0_7.index t (1 : Fin 2) = 3 :=
  (by decide +kernel : ∀ t : Fin grid0.N, win0_7.index t (0 : Fin 2) = 0 ∧ win0_7.index t (1 : Fin 2) = 3)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-- Row `512 t + p` is a row of the array. -/
theorem row_lt (t : Fin cfg0.N) (p : Fin 512) : t.val * 512 + p.val < 32768 := by
  have h : t.val < 64 := lt_of_lt_of_eq t.isLt N_0
  have hp : p.val < 512 := p.isLt
  omega

/-! ## The input blocks, read off the argument arrays -/

/-- Activation window 0's block at point `t`, at row `p` and column `k`, is the array at row `512 t + p`, column `0 + k`. -/
theorem x_blk0 (c : Dev nD) (t : Fin cfg0.N) (p : Fin 512) (k : Fin 1024) :
    iblk m c 0 t (ix2 p k)
      = m ((c : Thread nD τ).loc main_arg0) (ix2 (⟨t.val * 512 + p.val, row_lt t p⟩ : Fin 32768) (⟨k.val, by omega⟩ : Fin 4096)) := by
  show V m c main_arg0 (((cfg0.win 0).blk t).view.emb (ix2 p k)) = _
  rw [V_main_arg0 m c]
  refine congrArg (m ((c : Thread nD τ).loc main_arg0)) ?_
  funext a; apply Fin.ext
  obtain ⟨e0, e1⟩ := idx0 t
  match a with
  | ⟨0, _⟩ => show win0_0.index t (0 : Fin 2) * 512 + 1 * p.val = t.val * 512 + p.val; rw [e0]; omega
  | ⟨1, _⟩ => show win0_0.index t (1 : Fin 2) * 1024 + 1 * k.val = k.val; rw [e1]; omega
/-- Activation window 1's block at point `t`, at row `p` and column `k`, is the array at row `512 t + p`, column `1024 + k`. -/
theorem x_blk1 (c : Dev nD) (t : Fin cfg0.N) (p : Fin 512) (k : Fin 1024) :
    iblk m c 1 t (ix2 p k)
      = m ((c : Thread nD τ).loc main_arg0) (ix2 (⟨t.val * 512 + p.val, row_lt t p⟩ : Fin 32768) (⟨1024 + k.val, by omega⟩ : Fin 4096)) := by
  show V m c main_arg0 (((cfg0.win 1).blk t).view.emb (ix2 p k)) = _
  rw [V_main_arg0 m c]
  refine congrArg (m ((c : Thread nD τ).loc main_arg0)) ?_
  funext a; apply Fin.ext
  obtain ⟨e0, e1⟩ := idx1 t
  match a with
  | ⟨0, _⟩ => show win0_1.index t (0 : Fin 2) * 512 + 1 * p.val = t.val * 512 + p.val; rw [e0]; omega
  | ⟨1, _⟩ => show win0_1.index t (1 : Fin 2) * 1024 + 1 * k.val = 1024 + k.val; rw [e1]; omega
/-- Activation window 2's block at point `t`, at row `p` and column `k`, is the array at row `512 t + p`, column `2048 + k`. -/
theorem x_blk2 (c : Dev nD) (t : Fin cfg0.N) (p : Fin 512) (k : Fin 1024) :
    iblk m c 2 t (ix2 p k)
      = m ((c : Thread nD τ).loc main_arg0) (ix2 (⟨t.val * 512 + p.val, row_lt t p⟩ : Fin 32768) (⟨2048 + k.val, by omega⟩ : Fin 4096)) := by
  show V m c main_arg0 (((cfg0.win 2).blk t).view.emb (ix2 p k)) = _
  rw [V_main_arg0 m c]
  refine congrArg (m ((c : Thread nD τ).loc main_arg0)) ?_
  funext a; apply Fin.ext
  obtain ⟨e0, e1⟩ := idx2 t
  match a with
  | ⟨0, _⟩ => show win0_2.index t (0 : Fin 2) * 512 + 1 * p.val = t.val * 512 + p.val; rw [e0]; omega
  | ⟨1, _⟩ => show win0_2.index t (1 : Fin 2) * 1024 + 1 * k.val = 2048 + k.val; rw [e1]; omega
/-- Activation window 3's block at point `t`, at row `p` and column `k`, is the array at row `512 t + p`, column `3072 + k`. -/
theorem x_blk3 (c : Dev nD) (t : Fin cfg0.N) (p : Fin 512) (k : Fin 1024) :
    iblk m c 3 t (ix2 p k)
      = m ((c : Thread nD τ).loc main_arg0) (ix2 (⟨t.val * 512 + p.val, row_lt t p⟩ : Fin 32768) (⟨3072 + k.val, by omega⟩ : Fin 4096)) := by
  show V m c main_arg0 (((cfg0.win 3).blk t).view.emb (ix2 p k)) = _
  rw [V_main_arg0 m c]
  refine congrArg (m ((c : Thread nD τ).loc main_arg0)) ?_
  funext a; apply Fin.ext
  obtain ⟨e0, e1⟩ := idx3 t
  match a with
  | ⟨0, _⟩ => show win0_3.index t (0 : Fin 2) * 512 + 1 * p.val = t.val * 512 + p.val; rw [e0]; omega
  | ⟨1, _⟩ => show win0_3.index t (1 : Fin 2) * 1024 + 1 * k.val = 3072 + k.val; rw [e1]; omega

/-- Weight window 0's block, at row `q` and column `k`, is the array at row `q`, column `0 + k`, at every point. -/
theorem w_blk0 (c : Dev nD) (t : Fin cfg0.N) (q : Fin 64) (k : Fin 1024) :
    iblk m c 4 t (ix2 q k)
      = m ((c : Thread nD τ).loc main_arg1) (ix2 q (⟨k.val, by omega⟩ : Fin 4096)) := by
  show V m c main_arg1 (((cfg0.win 4).blk t).view.emb (ix2 q k)) = _
  rw [V_main_arg1 m c]
  refine congrArg (m ((c : Thread nD τ).loc main_arg1)) ?_
  funext a; apply Fin.ext
  obtain ⟨e0, e1⟩ := idx4 t
  match a with
  | ⟨0, _⟩ => show win0_4.index t (0 : Fin 2) * 64 + 1 * q.val = q.val; rw [e0]; omega
  | ⟨1, _⟩ => show win0_4.index t (1 : Fin 2) * 1024 + 1 * k.val = k.val; rw [e1]; omega
/-- Weight window 1's block, at row `q` and column `k`, is the array at row `q`, column `1024 + k`, at every point. -/
theorem w_blk1 (c : Dev nD) (t : Fin cfg0.N) (q : Fin 64) (k : Fin 1024) :
    iblk m c 5 t (ix2 q k)
      = m ((c : Thread nD τ).loc main_arg1) (ix2 q (⟨1024 + k.val, by omega⟩ : Fin 4096)) := by
  show V m c main_arg1 (((cfg0.win 5).blk t).view.emb (ix2 q k)) = _
  rw [V_main_arg1 m c]
  refine congrArg (m ((c : Thread nD τ).loc main_arg1)) ?_
  funext a; apply Fin.ext
  obtain ⟨e0, e1⟩ := idx5 t
  match a with
  | ⟨0, _⟩ => show win0_5.index t (0 : Fin 2) * 64 + 1 * q.val = q.val; rw [e0]; omega
  | ⟨1, _⟩ => show win0_5.index t (1 : Fin 2) * 1024 + 1 * k.val = 1024 + k.val; rw [e1]; omega
/-- Weight window 2's block, at row `q` and column `k`, is the array at row `q`, column `2048 + k`, at every point. -/
theorem w_blk2 (c : Dev nD) (t : Fin cfg0.N) (q : Fin 64) (k : Fin 1024) :
    iblk m c 6 t (ix2 q k)
      = m ((c : Thread nD τ).loc main_arg1) (ix2 q (⟨2048 + k.val, by omega⟩ : Fin 4096)) := by
  show V m c main_arg1 (((cfg0.win 6).blk t).view.emb (ix2 q k)) = _
  rw [V_main_arg1 m c]
  refine congrArg (m ((c : Thread nD τ).loc main_arg1)) ?_
  funext a; apply Fin.ext
  obtain ⟨e0, e1⟩ := idx6 t
  match a with
  | ⟨0, _⟩ => show win0_6.index t (0 : Fin 2) * 64 + 1 * q.val = q.val; rw [e0]; omega
  | ⟨1, _⟩ => show win0_6.index t (1 : Fin 2) * 1024 + 1 * k.val = 2048 + k.val; rw [e1]; omega
/-- Weight window 3's block, at row `q` and column `k`, is the array at row `q`, column `3072 + k`, at every point. -/
theorem w_blk3 (c : Dev nD) (t : Fin cfg0.N) (q : Fin 64) (k : Fin 1024) :
    iblk m c 7 t (ix2 q k)
      = m ((c : Thread nD τ).loc main_arg1) (ix2 q (⟨3072 + k.val, by omega⟩ : Fin 4096)) := by
  show V m c main_arg1 (((cfg0.win 7).blk t).view.emb (ix2 q k)) = _
  rw [V_main_arg1 m c]
  refine congrArg (m ((c : Thread nD τ).loc main_arg1)) ?_
  funext a; apply Fin.ext
  obtain ⟨e0, e1⟩ := idx7 t
  match a with
  | ⟨0, _⟩ => show win0_7.index t (0 : Fin 2) * 64 + 1 * q.val = q.val; rw [e0]; omega
  | ⟨1, _⟩ => show win0_7.index t (1 : Fin 2) * 1024 + 1 * k.val = 3072 + k.val; rw [e1]; omega

/-- The bias window's block, at its one row and column `q`, is the bias at `q`: the region finds the bias reshaped to
    one row. -/
theorem bias_blk (c : Dev nD) (t : Fin cfg0.N) (q : Fin 64) :
    iblk m c 8 t (ix2 (0 : Fin 1) q) = m ((c : Thread nD τ).loc main_arg2) (ix1 q) := by
  show V m c main_v0 (((cfg0.win 8).blk t).view.emb (ix2 (0 : Fin 1) q)) = _
  have e : (V m c main_v0 : S1x64.Idx → Elt Ideal .f32) = shapeCast S1x64 (m ((c : Thread nD τ).loc main_arg2)) shapeCasts_S64_S1x64 := by
    dsimp only [V, hostOps0]; after_results; rfl
  have hemb : ((cfg0.win 8).blk t).view.emb (ix2 (0 : Fin 1) q) = ix2 (0 : Fin 1) q := by
    funext a; apply Fin.ext
    obtain ⟨e0, e1⟩ := idx8 t
    match a with
    | ⟨0, _⟩ => show win0_8.index t (0 : Fin 2) * 1 + 1 * 0 = 0; rw [e0]
    | ⟨1, _⟩ => show win0_8.index t (1 : Fin 2) * 64 + 1 * q.val = q.val; rw [e1]; omega
  rw [hemb, e]
  exact shapeCast_a_1a_apply _ _ 0 q

/-- Entry `(p, q)` of the result block of point `t` is entry `(512 t + p, q)` of the result array. -/
theorem out_emb (t : Fin cfg0.N) (p : Fin 512) (q : Fin 64) :
    ((cfg0.win 9).blk t).view.emb (ix2 p q) = ix2 (⟨t.val * 512 + p.val, row_lt t p⟩ : Fin 32768) q := by
  funext a; apply Fin.ext
  obtain ⟨e0, e1⟩ := idx9 t
  match a with
  | ⟨0, _⟩ => show win0_9.index t (0 : Fin 2) * 512 + 1 * p.val = t.val * 512 + p.val; rw [e0]; omega
  | ⟨1, _⟩ => show win0_9.index t (1 : Fin 2) * 64 + 1 * q.val = q.val; rw [e1]; omega

/-! ## One entry of a block: the four quarters make the whole sum -/

/-- Blocks that hold row `r` of the activations and row `q` of the weights quarter by quarter, and the bias at `q`, give
    the specification at `(r, q)`. -/
theorem block_value (x : (⟨2, ![32768, 4096]⟩ : Shape).Idx → EReal) (w : (⟨2, ![64, 4096]⟩ : Shape).Idx → EReal) (b : (⟨1, ![64]⟩ : Shape).Idx → EReal)
    (X0 X1 X2 X3 : Vec Ideal S512x1024 .f32) (W0 W1 W2 W3 : Vec Ideal S64x1024 .f32) (B : Vec Ideal S1x64 .f32)
    (r : Fin 32768) (p : Fin 512) (q : Fin 64)
    (h0 : ∀ k : Fin 1024, X0 (ix2 p k) = x (ix2 r (⟨k.val, by omega⟩ : Fin 4096)))
    (h1 : ∀ k : Fin 1024, X1 (ix2 p k) = x (ix2 r (⟨1024 + k.val, by omega⟩ : Fin 4096)))
    (h2 : ∀ k : Fin 1024, X2 (ix2 p k) = x (ix2 r (⟨2048 + k.val, by omega⟩ : Fin 4096)))
    (h3 : ∀ k : Fin 1024, X3 (ix2 p k) = x (ix2 r (⟨3072 + k.val, by omega⟩ : Fin 4096)))
    (g0 : ∀ k : Fin 1024, W0 (ix2 q k) = w (ix2 q (⟨k.val, by omega⟩ : Fin 4096)))
    (g1 : ∀ k : Fin 1024, W1 (ix2 q k) = w (ix2 q (⟨1024 + k.val, by omega⟩ : Fin 4096)))
    (g2 : ∀ k : Fin 1024, W2 (ix2 q k) = w (ix2 q (⟨2048 + k.val, by omega⟩ : Fin 4096)))
    (g3 : ∀ k : Fin 1024, W3 (ix2 q k) = w (ix2 q (⟨3072 + k.val, by omega⟩ : Fin 4096)))
    (hb : B (ix2 (0 : Fin 1) q) = b (ix1 q)) :
    k0_pay1 (F := Ideal) X0 W0 X1 W1 X2 W2 X3 W3 B (ix2 p q) = G x w b (ix2 r q) := by
  rw [pay_apply, G_apply, sum_four_slabs (fun k => x (ix2 r k) * w (ix2 q k)), hb]
  simp only [h0, h1, h2, h3, g0, g1, g2, g3]

/-! ## What a point writes back, the cover, and the array -/

/-- What point `t` writes back is block `t` of the specification of the argument arrays. -/
theorem flushed_eq (c : Dev nD) (t : Fin cfg0.N) :
    (dats m 0 c).flushed 9 t = ((cfg0.win 9).blk t).view.read (Elt Ideal) (G (m ((c : Thread nD τ).loc main_arg0)) (m ((c : Thread nD τ).loc main_arg1)) (m ((c : Thread nD τ).loc main_arg2))) := by
  show (cfg0.win 9).cut (grid0.coords t) ((dats m 0 c).after 9 t) = _
  rw [after_9]
  unfold outBlock
  rw [View.canon_unit_zero zero_off]
  simp only [View.ld_unit_zero (S := S512x1024) zero_off, View.ld_unit_zero (S := S64x1024) zero_off, View.ld_unit_zero (S := S1x64) zero_off]
  funext j
  obtain ⟨p, q, rfl⟩ : ∃ (p : Fin 512) (q : Fin 64), j = ix2 p q := ⟨j 0, j 1, eq_ix2 (n0 := 512) (n1 := 64) j⟩
  show k0_pay1 (F := Ideal) (iblk m c 0 t) (iblk m c 4 t) (iblk m c 1 t) (iblk m c 5 t) (iblk m c 2 t) (iblk m c 6 t) (iblk m c 3 t) (iblk m c 7 t) (iblk m c 8 t) (ix2 p q)
    = G (m ((c : Thread nD τ).loc main_arg0)) (m ((c : Thread nD τ).loc main_arg1)) (m ((c : Thread nD τ).loc main_arg2)) (((cfg0.win 9).blk t).view.emb (ix2 p q))
  rw [out_emb]
  exact block_value (m ((c : Thread nD τ).loc main_arg0)) (m ((c : Thread nD τ).loc main_arg1)) (m ((c : Thread nD τ).loc main_arg2)) (iblk m c 0 t) (iblk m c 1 t) (iblk m c 2 t) (iblk m c 3 t) (iblk m c 4 t) (iblk m c 5 t) (iblk m c 6 t) (iblk m c 7 t) (iblk m c 8 t)
    ⟨t.val * 512 + p.val, row_lt t p⟩ p q
    (x_blk0 m c t p) (x_blk1 m c t p) (x_blk2 m c t p) (x_blk3 m c t p) (w_blk0 m c t q) (w_blk1 m c t q) (w_blk2 m c t q) (w_blk3 m c t q) (bias_blk m c t q)

/-- An index of the result array is in point `t`'s block iff each coordinate is in the block's range on its axis. -/
theorem mem_blk (t : Fin cfg0.N) (i : S32768x64.Idx) :
    i ∈ ((cfg0.win 9).blk t).view.set ↔ ∀ a : Fin 2, win0_9.index t a * S512x64.size a ≤ (i a).val ∧ (i a).val < win0_9.index t a * S512x64.size a + S512x64.size a := by
  show i ∈ ((View.whole main_v1).slice (win0_9.rect t)).set ↔ _
  rw [View.set_slice_whole, Rect.mem_set_unit]
  exact Iff.rfl

/-- Every index of the result array is in the block of the point its row falls to. -/
theorem cover (i : S32768x64.Idx) : ∃ t : Fin cfg0.N, (cfg0.win 9).flush t = true ∧ i ∈ ((cfg0.win 9).blk t).view.set := by
  have hi0 : (i 0).val < 32768 := (i 0).isLt
  have hi1 : (i 1).val < 64 := (i 1).isLt
  have ht : (i 0).val / 512 < cfg0.N := by rw [show cfg0.N = 64 from N_0]; omega
  obtain ⟨e0, e1⟩ := idx9 ⟨(i 0).val / 512, ht⟩
  refine ⟨⟨(i 0).val / 512, ht⟩, flush0_9 _, ?_⟩
  rw [mem_blk]
  intro a
  match a with
  | ⟨0, _⟩ =>
    show win0_9.index ⟨(i 0).val / 512, ht⟩ (0 : Fin 2) * 512 ≤ (i 0).val ∧ (i 0).val < win0_9.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_9.index ⟨(i 0).val / 512, ht⟩ (1 : Fin 2) * 64 ≤ (i 1).val ∧ (i 1).val < win0_9.index ⟨(i 0).val / 512, ht⟩ (1 : Fin 2) * 64 + 64
    rw [e1]; omega

/-- The result array after the run is the specification of the argument arrays. -/
theorem final (c : Dev nD) : (dats m 0 c).arrAt 9 cfg0.N = G (m ((c : Thread nD τ).loc main_arg0)) (m ((c : Thread nD τ).loc main_arg1)) (m ((c : Thread nD τ).loc main_arg2)) :=
  (dats m 0 c).arrAt_eq_of_cover 9 (G (m ((c : Thread nD τ).loc main_arg0)) (m ((c : Thread nD τ).loc main_arg1)) (m ((c : Thread nD τ).loc main_arg2))) (fun t _ => flushed_eq m c t) cover

/-- The kernel's run at the ideal instance: it terminates with the result array at the specification of the arguments
    and the arguments unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).1 9).trans (final m c),
      ((h c).1 0).trans (((dats m 0 c).arrAt_in 0 rfl _).trans ((A_eq m c 0).trans (V_main_arg0 m c))),
      ((h c).1 4).trans (((dats m 0 c).arrAt_in 4 rfl _).trans ((A_eq m c 4).trans (V_main_arg1 m c))),
      ((h c).2 main_arg2 (Pipeline.mem_restRefs_of main_arg2 rfl (by decide))).trans (V_main_arg2 m c)⟩) (run_main m ρ)

end Cert.Router

end
-- ==== Proof.RouterRef.lean ====
/-
  The reference program's result is the specification: its dot_general over all 4096 columns against the
  transposed weights, plus the bias broadcast down the rows, read element by element.
-/
import proofs.«120550_g35725537968819_cont_8to1_b_281_6_alg».proof.Proof.Gen.ReferenceIdeal.Read
import proofs.«120550_g35725537968819_cont_8to1_b_281_6_alg».proof.Proof.RouterSpec

noncomputable section

open scoped BigOperators

namespace Cert.Router

open Idealize.ShloMosaic Idealize.ShloMosaic.ValueIdx
open Cert.ReferenceIdeal Cert.ReferenceIdeal.Read

/-- the left operand of the product is read at (row of i, k) -/
theorem ref_lhs_idx (i : S32768x64.Idx) (k : Fin 4096) : lidx_main_v1 i k = ix2 (i 0) k :=
  funext fun a => Fin.ext (by match a with | ⟨0, _⟩ => rfl | ⟨1, _⟩ => rfl)

/-- the transposed weights at (k, column of i) are the weights at (column of i, k) -/
theorem ref_rhs_idx (i : S32768x64.Idx) (k : Fin 4096) : idx_main_v0 (ridx_main_v1 i k) = ix2 (i 1) k :=
  funext fun a => Fin.ext (by match a with | ⟨0, _⟩ => rfl | ⟨1, _⟩ => rfl)

/-- the bias broadcast to a row and then down the rows is read at the column of i -/
theorem ref_bias_idx (i : S32768x64.Idx) : idx_main_v2 (idx_main_v3 i) = ix1 (i 1) :=
  funext fun a => Fin.ext (by match a with | ⟨0, _⟩ => rfl)

/-- the reference's result is the specification -/
theorem ref_eq_G (x0 : (⟨Cert.ReferenceIdeal.S32768x4096, .f32⟩ : BufTy).Contents (Elt Ideal)) (x1 : (⟨Cert.ReferenceIdeal.S64x4096, .f32⟩ : BufTy).Contents (Elt Ideal)) (x2 : (⟨Cert.ReferenceIdeal.S64, .f32⟩ : BufTy).Contents (Elt Ideal)) :
    Cert.ReferenceIdeal.Read.val_main_v4 (F := Ideal) x0 x1 x2 = G x0 x1 x2 := by
  funext i
  rw [val_main_v4_apply, val_main_v1_apply, val_main_v3_apply, val_main_v2_apply]
  simp only [val_main_v0_apply, ref_lhs_idx, ref_rhs_idx, ref_bias_idx, Ideal.addf_def]
  rfl

end Cert.Router

end
-- ==== Proof.lean ====
/-
  The router's linear layer, `out = x · Wᵀ + b` with `x : f32[32768, 4096]`, `W : f32[64, 4096]`, `b : f32[64]`:
  a kernel that computes each block of 512 rows as four partial products over column quarters of width 1024, summed
  from the left, plus the bias, against one product over all 4096 columns plus the broadcast bias.

  The three frames: both readings of the kernel (word level and ideal) run to the end, fault nowhere and leave the
  arguments as launched — the launch of a pipeline whose input windows share their arrays, each window holding its
  array at a quarter of the full share (the frame modules); the reference is a straight line of host operations.
  The idealization rewrote nothing, so there is nothing to preserve. At the ideal instance the kernel's result array
  is the specification `G x W b` entry by entry (the blocks tile the array; a sum over 4096 columns is the sum of its
  four consecutive quarters, by associativity and commutativity of addition on the extended reals alone), and so is
  the reference's: both end at the same array.
-/
import proofs.«120550_g35725537968819_cont_8to1_b_281_6_alg».proof.Defs
import proofs.«120550_g35725537968819_cont_8to1_b_281_6_alg».proof.Proof.Gen.Kernel
import proofs.«120550_g35725537968819_cont_8to1_b_281_6_alg».proof.Proof.Gen.KernelIdeal
import proofs.«120550_g35725537968819_cont_8to1_b_281_6_alg».proof.Proof.Gen.ReferenceIdeal
import proofs.«120550_g35725537968819_cont_8to1_b_281_6_alg».proof.Proof.Gen.ReferenceIdeal.Run
import proofs.«120550_g35725537968819_cont_8to1_b_281_6_alg».proof.Proof.Gen.ReferenceIdeal.Read
import proofs.«120550_g35725537968819_cont_8to1_b_281_6_alg».proof.Proof.Gen.Pre_finite_inputs
import proofs.«120550_g35725537968819_cont_8to1_b_281_6_alg».proof.Proof.FrameK
import proofs.«120550_g35725537968819_cont_8to1_b_281_6_alg».proof.Proof.FrameI
import proofs.«120550_g35725537968819_cont_8to1_b_281_6_alg».proof.Proof.RouterBlocks
import proofs.«120550_g35725537968819_cont_8to1_b_281_6_alg».proof.Proof.RouterRef
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments unchanged. -/
theorem frame_kernel : Cert.frame_Kernel := fun m ρ _ => Cert.Kernel.Shared.frame m ρ

/-- So does its reading at the ideal instance. -/
theorem frame_kernelIdeal : Cert.frame_KernelIdeal := fun m ρ _ => Cert.KernelIdeal.Shared.frame m ρ

/-- The reference is a straight line of host operations: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance, from memories that agree on the arguments, the kernel's result array and the reference's are
    both the specification of the arguments. -/
theorem algebraic : Cert.algebraic_KernelIdeal_ReferenceIdeal := by
  intro m ρ m' ρ' _ hagree
  refine ⟨_, Cert.Router.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v4_eq _ _ _).trans (Cert.Router.ref_eq_G _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
